-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S3x8192 : Shape := ⟨2, ![3, 8192]⟩
abbrev S8192x1 : Shape := ⟨2, ![8192, 1]⟩
abbrev S2x1x8192 : Shape := ⟨3, ![2, 1, 8192]⟩
abbrev S256x3 : Shape := ⟨2, ![256, 3]⟩
abbrev S256x1 : Shape := ⟨2, ![256, 1]⟩
abbrev S1x1x8192 : Shape := ⟨3, ![1, 1, 8192]⟩
abbrev S1x8192 : Shape := ⟨2, ![1, 8192]⟩
abbrev S256x8192 : Shape := ⟨2, ![256, 8192]⟩
abbrev S256 : Shape := ⟨1, ![256]⟩
abbrev S8192 : Shape := ⟨1, ![8192]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S3x8192, .f32⟩
  | .hbm, ⟨3, _⟩ => ⟨S8192x1, .f32⟩
  | .hbm, ⟨4, _⟩ => ⟨S2x1x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S3x8192, .f32⟩
  | .local _ .vmem, ⟨3, _⟩ => ⟨S256x1, .f32⟩
  | .local _ .vmem, ⟨4, _⟩ => ⟨S256x1, .f32⟩
  | .local _ .vmem, ⟨5, _⟩ => ⟨S1x1x8192, .f32⟩
  | .local _ .vmem, ⟨6, _⟩ => ⟨S1x1x8192, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_6 : BitVec 32 := 0#32
  let v30 : BitVec 1 := Scalar.cmpi .ne v29 c0_i32_6
  v30

def k0_cond2 (i : grid0.Coords) : BitVec 1 :=
  let arg1 : BitVec 32 := BitVec.ofNat 32 (i 1).val
  let c0_i32_7 : BitVec 32 := 0#32
  let v31 : BitVec 1 := Scalar.cmpi .sgt arg1 c0_i32_7
  let v32 : BitVec 32 := Scalar.extui v31
  let c0_i32_8 : BitVec 32 := 0#32
  let v33 : BitVec 1 := Scalar.cmpi .ne v32 c0_i32_8
  v33

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8192x3_S3x8192_1_0 : S8192x3.Transposes [1, 0] S3x8192
  inb_S256x3_S256x3_0_0 : ∀ a, (![0, 0] : Fin 2 → Nat) a + S256x3.size a ≤ S256x3.size a
  h_S256x3 : 0 < S256x3.numel
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  slices_S256x3_o0_0_S256x1 : S256x3.Slices ![0, 0] S256x1
  slices_S3x8192_o0_0_S1x8192 : S3x8192.Slices ![0, 0] S1x8192
  broadcasts_S256x1_S256x8192 : S256x1.Broadcasts S256x8192
  broadcasts_S1x8192_S256x8192 : S1x8192.Broadcasts S256x8192
  slices_S256x3_o0_1_S256x1 : S256x3.Slices ![0, 1] S256x1
  slices_S3x8192_o1_0_S1x8192 : S3x8192.Slices ![1, 0] S1x8192
  slices_S256x3_o0_2_S256x1 : S256x3.Slices ![0, 2] S256x1
  slices_S3x8192_o2_0_S1x8192 : S3x8192.Slices ![2, 0] S1x8192
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reduces_S256x8192_S8192 : S256x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  reducesTo_S8192x1_S_d0_1 : S8192x1.ReducesTo [0, 1] S_
  h_S_ : 0 < S_.numel
  reducesTo_S2x1x8192_S1x8192_d0 : S2x1x8192.ReducesTo [0] S1x8192
  reducesTo_S1x8192_S_d0_1 : S1x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S8192x3.size a
  hwx0_0 : ∀ i : grid0.Coords, EltTy.bits .f32 = 32 ∨ (Rect.block (s := S8192x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S3x8192 : Shape := ⟨2, ![3, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S_, .f32⟩
  | .hbm, ⟨7, _⟩ => ⟨S8192, .f32⟩
  | .hbm, ⟨8, _⟩ => ⟨S3x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.BitsBody.Conds.lean ====
/-
  The grid of the distance kernel is 2 × 16: the outer coordinate picks one half of the rows of the first point set,
  the inner one walks the sixteen 256-row tiles of that half. The body's two conditionals test the inner coordinate:
  the first holds exactly at the first tile of a half (there the running column minimum is started), the second at
  every later tile (there it is lowered). Over the flattened point `t` the inner coordinate is `t mod 16`, so the
  two conditions are decided once over the 32 points; the column-minimum window is therefore stored into at every
  point.
-/
import proofs.«155098_j43095701848170_2_alg».proof.Proof.Gen.Kernel.Frame
import proofs.«155098_j43095701848170_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds exactly at the first tile of each half. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second conditional holds exactly at the later tiles of each half. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditionals holds at every grid coordinate: the column-minimum window is never idle. -/
theorem colmin_live : ∀ i : grid0.Coords, cfg0.idle 3 i = false := by
  intro i
  show (!(k0_cond1 i == 1#1) && !(k0_cond2 i == 1#1)) = false
  unfold k0_cond1 k0_cond2
  generalize i 1 = x
  revert x
  decide +kernel

/-- One staging buffer of each output window, through which its contents are stated. -/
abbrev rowView : View sig .tc .vmem S256x1 .f32 := (Memref.whole cc0_stg2_0 : Memref sig .tc .vmem S256x1 .f32).view
abbrev colView : View sig .tc .vmem S1x1x8192 .f32 := (Memref.whole cc0_stg3_0 : Memref sig .tc .vmem S1x1x8192 .f32).view

/-- Each window's current staging memref at point `t`, as the pipeline passes it to the body, and its wholeness. -/
abbrev ms0 (t : Fin cfg0.N) : Memref sig .tc .vmem S256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.Kernel.Hand

end
-- ==== Proof.BitsBody.RunFirst.lean ====
/-
  The body at the first tile of a half, run once on arbitrary whole staging buffers: it loads the 256 × 3 tile of
  the first point set and the whole transposed second point set, forms the 256 × 8192 table of squared distances,
  stores its row minima into the row-minimum buffer and — the first conditional taken, the second not — stores its
  column minima into the column-minimum buffer, whatever that buffer held. What each output buffer ends with is
  found by the run as a list of written pieces.
-/
import proofs.«155098_j43095701848170_2_alg».proof.Proof.BitsBody.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers, with the body's triple: from the inputs' buffers at
    `x0`, `x1` and the outputs' at anything, the body runs to a continuation that is handed the inputs unchanged and
    each output's buffer with its pieces written. -/
noncomputable def runFirst (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) :
    (Lr : List (View.Piece (Elt F) S256x1 .f32)) ×' (Lc : List (View.Piece (Elt F) S1x1x8192 .f32)) ×'
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Lr)
                ∗ (∃ f, arg5.view.loc (c : Thread nD τ) ↦[arg5.view.set]{fullShare} arg5.view.writes (Elt F) f Lc)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.BitsBody.RunLater.lean ====
/-
  The body at a later tile of a half, run once on arbitrary whole staging buffers: as at the first tile it stores
  the row minima of the tile's table of squared distances; the second conditional taken, the first not, it lowers
  the running column minimum `xo` the buffer holds by the tile's column minima and stores that back. What each
  output buffer ends with is found by the run as a list of written pieces.
-/
import proofs.«155098_j43095701848170_2_alg».proof.Proof.BitsBody.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers, with the body's triple: from the inputs' buffers at
    `x0`, `x1` and the outputs' at anything and at `xo`, the body runs to a continuation that is handed the inputs unchanged and
    each output's buffer with its pieces written. -/
noncomputable def runLater (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) :
    (Lr : List (View.Piece (Elt F) S256x1 .f32)) ×' (Lc : List (View.Piece (Elt F) S1x1x8192 .f32)) ×'
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Lr)
                ∗ (∃ f, arg5.view.loc (c : Thread nD τ) ↦[arg5.view.set]{fullShare} arg5.view.writes (Elt F) f Lc)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.BitsBody.Body.lean ====
/-
  The frame of the distance kernel's program, and what its two output windows hold point by point.

  At every point the body leaves, in the row-minimum window's buffer, the row minima of the point's 256 × 8192 table
  of squared distances (a function of the point's two input blocks alone). The column-minimum window's block index is
  the half, so its buffer is carried across the sixteen tiles of a half and written back after the last of them: it
  holds the tile's column minima after the first tile, and after each later tile the entrywise minimum of what it held
  and that tile's column minima — a recursion on the point (`colAcc`). With these as the proof data the body's
  triple at each point is one of the two runs, chosen by `t mod 16`; the launch theorem then gives the run of the
  whole program, and the frame claim is its reading at the two argument arrays.
-/
import proofs.«155098_j43095701848170_2_alg».proof.Proof.BitsBody.RunLater
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the runs' pieces are -/

/-- At a first tile the one store into the row-minimum buffer covers it; -/
theorem coverFirstRow (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) (y : S256x1.Idx) :
    ∃ pc ∈ (runFirst c i arg2 harg2 arg3 harg3 arg4 harg4 arg5 harg5 h1 h2 x0 x1).1, y ∈ pc.1.set :=
  View.cover_of_tiledL (runFirst c i arg2 harg2 arg3 harg3 arg4 harg4 arg5 harg5 h1 h2 x0 x1).1 S256x1.size (by sl_kernel_rfl) y
/-- and the one store into the column-minimum buffer covers that. -/
theorem coverFirstCol (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) (y : S1x1x8192.Idx) :
    ∃ pc ∈ (runFirst c i arg2 harg2 arg3 harg3 arg4 harg4 arg5 harg5 h1 h2 x0 x1).2.1, y ∈ pc.1.set :=
  View.cover_of_tiledL (runFirst c i arg2 harg2 arg3 harg3 arg4 harg4 arg5 harg5 h1 h2 x0 x1).2.1 S1x1x8192.size (by sl_kernel_rfl) y
/-- The same at a later tile. -/
theorem coverLaterRow (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) (y : S256x1.Idx) :
    ∃ pc ∈ (runLater c i arg2 harg2 arg3 harg3 arg4 harg4 arg5 harg5 h1 h2 x0 x1 xo).1, y ∈ pc.1.set :=
  View.cover_of_tiledL (runLater c i arg2 harg2 arg3 harg3 arg4 harg4 arg5 harg5 h1 h2 x0 x1 xo).1 S256x1.size (by sl_kernel_rfl) y
theorem coverLaterCol (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) (y : S1x1x8192.Idx) :
    ∃ pc ∈ (runLater c i arg2 harg2 arg3 harg3 arg4 harg4 arg5 harg5 h1 h2 x0 x1 xo).2.1, y ∈ pc.1.set :=
  View.cover_of_tiledL (runLater c i arg2 harg2 arg3 harg3 arg4 harg4 arg5 harg5 h1 h2 x0 x1 xo).2.1 S1x1x8192.size (by sl_kernel_rfl) y

/-- At a first tile the row-minimum buffer ends at the row minima of the table of the two input blocks
    (the store's payload, its loads reading the whole input buffers), whatever it held; -/
theorem firstRow_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) {sig' : RefSig} {κ' : Kind} {sp' : Space} (v : View sig' κ' sp' S256x1 .f32) (f : v.ty.Contents (Elt F)) :
    v.read (Elt F) (v.writes (Elt F) f (runFirst c i arg2 harg2 arg3 harg3 arg4 harg4 arg5 harg5 h1 h2 x0 x1).1) = k0_pay2 x0 x1 := by
  rw [View.read_writes_eq_canon _ _ _ (coverFirstRow c i arg2 harg2 arg3 harg3 arg4 harg4 arg5 harg5 h1 h2 x0 x1)]
  unfold runFirst
  dsimp only
  rw [View.canon_unit_zero hz2]
  simp only [View.readAt_eq_ld, harg2.read_unread, harg3.read_unread, View.ld_unit_zero (S := S256x3) hz2, View.ld_unit_zero (S := S3x8192) hz2]
/-- and the column-minimum buffer at the column minima of that table. -/
theorem firstCol_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) {sig' : RefSig} {κ' : Kind} {sp' : Space} (v : View sig' κ' sp' S1x1x8192 .f32) (f : v.ty.Contents (Elt F)) :
    v.read (Elt F) (v.writes (Elt F) f (runFirst c i arg2 harg2 arg3 harg3 arg4 harg4 arg5 harg5 h1 h2 x0 x1).2.1) = k0_pay4 x0 x1 := by
  rw [View.read_writes_eq_canon _ _ _ (coverFirstCol c i arg2 harg2 arg3 harg3 arg4 harg4 arg5 harg5 h1 h2 x0 x1)]
  unfold runFirst
  dsimp only
  rw [View.canon_unit_zero hz3]
  simp only [View.readAt_eq_ld, harg2.read_unread, harg3.read_unread, View.ld_unit_zero (S := S256x3) hz2, View.ld_unit_zero (S := S3x8192) hz2]
/-- At a later tile the row-minimum buffer again ends at the row minima of the point's table; -/
theorem laterRow_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) {sig' : RefSig} {κ' : Kind} {sp' : Space} (v : View sig' κ' sp' S256x1 .f32) (f : v.ty.Contents (Elt F)) :
    v.read (Elt F) (v.writes (Elt F) f (runLater c i arg2 harg2 arg3 harg3 arg4 harg4 arg5 harg5 h1 h2 x0 x1 xo).1) = k0_pay2 x0 x1 := by
  rw [View.read_writes_eq_canon _ _ _ (coverLaterRow c i arg2 harg2 arg3 harg3 arg4 harg4 arg5 harg5 h1 h2 x0 x1 xo)]
  unfold runLater
  dsimp only
  rw [View.canon_unit_zero hz2]
  simp only [View.readAt_eq_ld, harg2.read_unread, harg3.read_unread, View.ld_unit_zero (S := S256x3) hz2, View.ld_unit_zero (S := S3x8192) hz2]
/-- and the column-minimum buffer at the entrywise minimum of what it held and the table's column minima. -/
theorem laterCol_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) {sig' : RefSig} {κ' : Kind} {sp' : Space} (v : View sig' κ' sp' S1x1x8192 .f32) (f : v.ty.Contents (Elt F)) :
    v.read (Elt F) (v.writes (Elt F) f (runLater c i arg2 harg2 arg3 harg3 arg4 harg4 arg5 harg5 h1 h2 x0 x1 xo).2.1) = k0_pay5 x0 x1 xo := by
  rw [View.read_writes_eq_canon _ _ _ (coverLaterCol c i arg2 harg2 arg3 harg3 arg4 harg4 arg5 harg5 h1 h2 x0 x1 xo)]
  unfold runLater
  dsimp only
  rw [View.canon_unit_zero hz3]
  simp only [View.readAt_eq_ld, harg2.read_unread, harg3.read_unread, harg5.read_unread, View.ld_unit_zero (S := S256x3) hz2, View.ld_unit_zero (S := S3x8192) hz2, View.ld_unit_zero (S := S1x1x8192) hz3]

/-! ## The running column minimum -/

/-- What the column-minimum window's buffer holds after the body at position `n`: started afresh at the first tile of
    a half, lowered by the tile's column minima at every later one. -/
def colAcc (c : Dev nD) : (n : ℕ) → n < cfg0.N → Vec F S1x1x8192 .f32
  | 0, hn => k0_pay4 (iblk m c 0 ⟨0, hn⟩) (iblk m c 1 ⟨0, hn⟩)
  | n + 1, hn =>
    if (n + 1) % 16 = 0 then k0_pay4 (iblk m c 0 ⟨n + 1, hn⟩) (iblk m c 1 ⟨n + 1, hn⟩)
    else k0_pay5 (iblk m c 0 ⟨n + 1, hn⟩) (iblk m c 1 ⟨n + 1, hn⟩) (colAcc c n (Nat.lt_of_succ_lt hn))

theorem colAcc_first (c : Dev nD) (t : Fin cfg0.N) (h0 : t.val % 16 = 0) :
    colAcc m c t.val t.isLt = k0_pay4 (iblk m c 0 t) (iblk m c 1 t) := by
  obtain ⟨n, hn⟩ := t
  cases n with
  | zero => exact rfl
  | succ n => exact (if_pos h0).trans rfl

theorem colAcc_later (c : Dev nD) (t : Fin cfg0.N) (h0 : ¬t.val % 16 = 0) :
    colAcc m c t.val t.isLt = k0_pay5 (iblk m c 0 t) (iblk m c 1 t) (colAcc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the pipeline on core `c`: the arrays as the region finds them; after the body at point `t`
    each input's buffer at its block, the row-minimum buffer at the row minima of the point's table, the
    column-minimum buffer at the running column minimum; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (k0_pay2 (iblk m c 0 t) (iblk m c 1 t) : Vec F S256x1 .f32)
    | ⟨3, _⟩ => colAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (k0_pay2 (iblk m c 0 t) (iblk m c 1 t) : Vec F S256x1 .f32) := by dsimp only [dats]
theorem after3 (c : Dev nD) (t : Fin cfg0.N) : (dats m 0 c).after 3 t = colAcc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile the column-minimum window's current buffer holds what the body left at the point before: the
    window is written back only after the last tile of a half, so not between the two points, and it is never idle. -/
theorem before3_later (c : Dev nD) (t : Fin cfg0.N) (h0 : ¬t.val % 16 = 0) (d) :
    (dats m 0 c).before 3 t d = colAcc m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    colmin_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; `t mod 16` says which run applies, and at a later
    tile the column-minimum buffer holds the running minimum of the point before; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [colAcc_first m c t h0]
    iintro ⟨HΦ, Ho, ⟨%d0, H0⟩, ⟨%d1, H1⟩, ⟨%d2, H2⟩, ⟨%d3, H3⟩⟩
    iapply ((runFirst c (grid0.coords t) _ (hs0 t) _ (hs1 t) _ (hs2 t) _ (hs3 t) ((first_iff t).mpr h0) (fun h => ((later_iff t).mp h) h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact firstRow_eq c _ _ _ _ _ _ _ _ _ _ _ _ _ _ _
    unfold owns; iexists _; isplitr
    swap; · iexact H3
    ipureintro; exact firstCol_eq c _ _ _ _ _ _ _ _ _ _ _ _ _ _ _
  · rw [colAcc_later m c t h0]
    simp only [before3_later m c t h0]
    iintro ⟨HΦ, Ho, ⟨%d0, H0⟩, ⟨%d1, H1⟩, ⟨%d2, H2⟩, ⟨%d3, H3⟩⟩
    iapply ((runLater c (grid0.coords t) _ (hs0 t) _ (hs1 t) _ (hs2 t) _ (hs3 t) (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact laterRow_eq c _ _ _ _ _ _ _ _ _ _ _ _ _ _ _ _
    unfold owns; iexists _; isplitr
    swap; · iexact H3
    ipureintro; exact laterCol_eq c _ _ _ _ _ _ _ _ _ _ _ _ _ _ _ _

/-- The library's body obligation, at every point (the column-minimum window is live at every point, so the obligation's
    case distinction on idleness falls to its stored case). -/
theorem body_obligation (c : Dev nD) : BodyObligation (dats (F := F) m 0 c) (defs₀ (F := F)) Variants.none () Set.univ := fun t => by
  rw [bigSep_W0, bigSep_W0]
  dsimp only
  rw [show idle0 3 (grid0.coords t) = false from colmin_live (grid0.coords t)]
  exact sound_body m c t

/-! ## The run and the frame -/

set_option backward.isDefEq.respectTransparency.types false in
/-- From any memory with zero counters every weakly fair execution of the program terminates, and every final state has
    every array of the pipeline at what the library computes from the proof data and every other unscoped buffer as
    the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealBody.Conds.lean ====
/-
  The grid of the distance kernel is 2 × 16: the outer coordinate picks one half of the rows of the first point set,
  the inner one walks the sixteen 256-row tiles of that half. The body's two conditionals test the inner coordinate:
  the first holds exactly at the first tile of a half (there the running column minimum is started), the second at
  every later tile (there it is lowered). Over the flattened point `t` the inner coordinate is `t mod 16`, so the
  two conditions are decided once over the 32 points; the column-minimum window is therefore stored into at every
  point.
-/
import proofs.«155098_j43095701848170_2_alg».proof.Proof.Gen.KernelIdeal.Frame
import proofs.«155098_j43095701848170_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds exactly at the first tile of each half. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second conditional holds exactly at the later tiles of each half. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditionals holds at every grid coordinate: the column-minimum window is never idle. -/
theorem colmin_live : ∀ i : grid0.Coords, cfg0.idle 3 i = false := by
  intro i
  show (!(k0_cond1 i == 1#1) && !(k0_cond2 i == 1#1)) = false
  unfold k0_cond1 k0_cond2
  generalize i 1 = x
  revert x
  decide +kernel

/-- One staging buffer of each output window, through which its contents are stated. -/
abbrev rowView : View sig .tc .vmem S256x1 .f32 := (Memref.whole cc0_stg2_0 : Memref sig .tc .vmem S256x1 .f32).view
abbrev colView : View sig .tc .vmem S1x1x8192 .f32 := (Memref.whole cc0_stg3_0 : Memref sig .tc .vmem S1x1x8192 .f32).view

/-- Each window's current staging memref at point `t`, as the pipeline passes it to the body, and its wholeness. -/
abbrev ms0 (t : Fin cfg0.N) : Memref sig .tc .vmem S256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.KernelIdeal.Hand

end
-- ==== Proof.IdealBody.RunFirst.lean ====
/-
  The body at the first tile of a half, run once on arbitrary whole staging buffers: it loads the 256 × 3 tile of
  the first point set and the whole transposed second point set, forms the 256 × 8192 table of squared distances,
  stores its row minima into the row-minimum buffer and — the first conditional taken, the second not — stores its
  column minima into the column-minimum buffer, whatever that buffer held. What each output buffer ends with is
  found by the run as a list of written pieces.
-/
import proofs.«155098_j43095701848170_2_alg».proof.Proof.IdealBody.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers, with the body's triple: from the inputs' buffers at
    `x0`, `x1` and the outputs' at anything, the body runs to a continuation that is handed the inputs unchanged and
    each output's buffer with its pieces written. -/
noncomputable def runFirst (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) :
    (Lr : List (View.Piece (Elt F) S256x1 .f32)) ×' (Lc : List (View.Piece (Elt F) S1x1x8192 .f32)) ×'
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Lr)
                ∗ (∃ f, arg5.view.loc (c : Thread nD τ) ↦[arg5.view.set]{fullShare} arg5.view.writes (Elt F) f Lc)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.IdealBody.RunLater.lean ====
/-
  The body at a later tile of a half, run once on arbitrary whole staging buffers: as at the first tile it stores
  the row minima of the tile's table of squared distances; the second conditional taken, the first not, it lowers
  the running column minimum `xo` the buffer holds by the tile's column minima and stores that back. What each
  output buffer ends with is found by the run as a list of written pieces.
-/
import proofs.«155098_j43095701848170_2_alg».proof.Proof.IdealBody.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers, with the body's triple: from the inputs' buffers at
    `x0`, `x1` and the outputs' at anything and at `xo`, the body runs to a continuation that is handed the inputs unchanged and
    each output's buffer with its pieces written. -/
noncomputable def runLater (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) :
    (Lr : List (View.Piece (Elt F) S256x1 .f32)) ×' (Lc : List (View.Piece (Elt F) S1x1x8192 .f32)) ×'
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Lr)
                ∗ (∃ f, arg5.view.loc (c : Thread nD τ) ↦[arg5.view.set]{fullShare} arg5.view.writes (Elt F) f Lc)) -∗ K ⟨⟩))
          ⊢ wp frame (wpE (defs₀ (F := F)) Variants.none c none) E (cc0__chamfer_kernel i arg2 harg2 arg3 harg3 arg4 harg4 arg5 harg5) K := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.IdealBody.Body.lean ====
/-
  The frame of the distance kernel's program, and what its two output windows hold point by point.

  At every point the body leaves, in the row-minimum window's buffer, the row minima of the point's 256 × 8192 table
  of squared distances (a function of the point's two input blocks alone). The column-minimum window's block index is
  the half, so its buffer is carried across the sixteen tiles of a half and written back after the last of them: it
  holds the tile's column minima after the first tile, and after each later tile the entrywise minimum of what it held
  and that tile's column minima — a recursion on the point (`colAcc`). With these as the proof data the body's
  triple at each point is one of the two runs, chosen by `t mod 16`; the launch theorem then gives the run of the
  whole program, and the frame claim is its reading at the two argument arrays.
-/
import proofs.«155098_j43095701848170_2_alg».proof.Proof.IdealBody.RunLater
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the runs' pieces are -/

/-- At a first tile the one store into the row-minimum buffer covers it; -/
theorem coverFirstRow (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) (y : S256x1.Idx) :
    ∃ pc ∈ (runFirst c i arg2 harg2 arg3 harg3 arg4 harg4 arg5 harg5 h1 h2 x0 x1).1, y ∈ pc.1.set :=
  View.cover_of_tiledL (runFirst c i arg2 harg2 arg3 harg3 arg4 harg4 arg5 harg5 h1 h2 x0 x1).1 S256x1.size (by sl_kernel_rfl) y
/-- and the one store into the column-minimum buffer covers that. -/
theorem coverFirstCol (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) (y : S1x1x8192.Idx) :
    ∃ pc ∈ (runFirst c i arg2 harg2 arg3 harg3 arg4 harg4 arg5 harg5 h1 h2 x0 x1).2.1, y ∈ pc.1.set :=
  View.cover_of_tiledL (runFirst c i arg2 harg2 arg3 harg3 arg4 harg4 arg5 harg5 h1 h2 x0 x1).2.1 S1x1x8192.size (by sl_kernel_rfl) y
/-- The same at a later tile. -/
theorem coverLaterRow (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) (y : S256x1.Idx) :
    ∃ pc ∈ (runLater c i arg2 harg2 arg3 harg3 arg4 harg4 arg5 harg5 h1 h2 x0 x1 xo).1, y ∈ pc.1.set :=
  View.cover_of_tiledL (runLater c i arg2 harg2 arg3 harg3 arg4 harg4 arg5 harg5 h1 h2 x0 x1 xo).1 S256x1.size (by sl_kernel_rfl) y
theorem coverLaterCol (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) (y : S1x1x8192.Idx) :
    ∃ pc ∈ (runLater c i arg2 harg2 arg3 harg3 arg4 harg4 arg5 harg5 h1 h2 x0 x1 xo).2.1, y ∈ pc.1.set :=
  View.cover_of_tiledL (runLater c i arg2 harg2 arg3 harg3 arg4 harg4 arg5 harg5 h1 h2 x0 x1 xo).2.1 S1x1x8192.size (by sl_kernel_rfl) y

/-- At a first tile the row-minimum buffer ends at the row minima of the table of the two input blocks
    (the store's payload, its loads reading the whole input buffers), whatever it held; -/
theorem firstRow_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) {sig' : RefSig} {κ' : Kind} {sp' : Space} (v : View sig' κ' sp' S256x1 .f32) (f : v.ty.Contents (Elt F)) :
    v.read (Elt F) (v.writes (Elt F) f (runFirst c i arg2 harg2 arg3 harg3 arg4 harg4 arg5 harg5 h1 h2 x0 x1).1) = k0_pay2 x0 x1 := by
  rw [View.read_writes_eq_canon _ _ _ (coverFirstRow c i arg2 harg2 arg3 harg3 arg4 harg4 arg5 harg5 h1 h2 x0 x1)]
  unfold runFirst
  dsimp only
  rw [View.canon_unit_zero hz2]
  simp only [View.readAt_eq_ld, harg2.read_unread, harg3.read_unread, View.ld_unit_zero (S := S256x3) hz2, View.ld_unit_zero (S := S3x8192) hz2]
/-- and the column-minimum buffer at the column minima of that table. -/
theorem firstCol_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : k0_cond1 i = 1#1) (h2 : ¬ k0_cond2 i = 1#1) (x0 : Vec F S256x3 .f32) (x1 : Vec F S3x8192 .f32) {sig' : RefSig} {κ' : Kind} {sp' : Space} (v : View sig' κ' sp' S1x1x8192 .f32) (f : v.ty.Contents (Elt F)) :
    v.read (Elt F) (v.writes (Elt F) f (runFirst c i arg2 harg2 arg3 harg3 arg4 harg4 arg5 harg5 h1 h2 x0 x1).2.1) = k0_pay4 x0 x1 := by
  rw [View.read_writes_eq_canon _ _ _ (coverFirstCol c i arg2 harg2 arg3 harg3 arg4 harg4 arg5 harg5 h1 h2 x0 x1)]
  unfold runFirst
  dsimp only
  rw [View.canon_unit_zero hz3]
  simp only [View.readAt_eq_ld, harg2.read_unread, harg3.read_unread, View.ld_unit_zero (S := S256x3) hz2, View.ld_unit_zero (S := S3x8192) hz2]
/-- At a later tile the row-minimum buffer again ends at the row minima of the point's table; -/
theorem laterRow_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) {sig' : RefSig} {κ' : Kind} {sp' : Space} (v : View sig' κ' sp' S256x1 .f32) (f : v.ty.Contents (Elt F)) :
    v.read (Elt F) (v.writes (Elt F) f (runLater c i arg2 harg2 arg3 harg3 arg4 harg4 arg5 harg5 h1 h2 x0 x1 xo).1) = k0_pay2 x0 x1 := by
  rw [View.read_writes_eq_canon _ _ _ (coverLaterRow c i arg2 harg2 arg3 harg3 arg4 harg4 arg5 harg5 h1 h2 x0 x1 xo)]
  unfold runLater
  dsimp only
  rw [View.canon_unit_zero hz2]
  simp only [View.readAt_eq_ld, harg2.read_unread, harg3.read_unread, View.ld_unit_zero (S := S256x3) hz2, View.ld_unit_zero (S := S3x8192) hz2]
/-- and the column-minimum buffer at the entrywise minimum of what it held and the table's column minima. -/
theorem laterCol_eq (c : Dev nD) (i : grid0.Coords)
    (arg2 : Memref sig .tc .vmem S256x3 .f32) (harg2 : arg2.IsWhole) (arg3 : Memref sig .tc .vmem S3x8192 .f32) (harg3 : arg3.IsWhole)
    (arg4 : Memref sig .tc .vmem S256x1 .f32) (harg4 : arg4.IsWhole) (arg5 : Memref sig .tc .vmem S1x1x8192 .f32) (harg5 : arg5.IsWhole)
    (h1 : ¬ k0_cond1 i = 1#1) (h2 : k0_cond2 i = 1#1) (x0 : Vec F S256x3 .f32) (x1 : Vec F S3x8192 .f32) (xo : Vec F S1x1x8192 .f32) {sig' : RefSig} {κ' : Kind} {sp' : Space} (v : View sig' κ' sp' S1x1x8192 .f32) (f : v.ty.Contents (Elt F)) :
    v.read (Elt F) (v.writes (Elt F) f (runLater c i arg2 harg2 arg3 harg3 arg4 harg4 arg5 harg5 h1 h2 x0 x1 xo).2.1) = k0_pay5 x0 x1 xo := by
  rw [View.read_writes_eq_canon _ _ _ (coverLaterCol c i arg2 harg2 arg3 harg3 arg4 harg4 arg5 harg5 h1 h2 x0 x1 xo)]
  unfold runLater
  dsimp only
  rw [View.canon_unit_zero hz3]
  simp only [View.readAt_eq_ld, harg2.read_unread, harg3.read_unread, harg5.read_unread, View.ld_unit_zero (S := S256x3) hz2, View.ld_unit_zero (S := S3x8192) hz2, View.ld_unit_zero (S := S1x1x8192) hz3]

/-! ## The running column minimum -/

/-- What the column-minimum window's buffer holds after the body at position `n`: started afresh at the first tile of
    a half, lowered by the tile's column minima at every later one. -/
def colAcc (c : Dev nD) : (n : ℕ) → n < cfg0.N → Vec F S1x1x8192 .f32
  | 0, hn => k0_pay4 (iblk m c 0 ⟨0, hn⟩) (iblk m c 1 ⟨0, hn⟩)
  | n + 1, hn =>
    if (n + 1) % 16 = 0 then k0_pay4 (iblk m c 0 ⟨n + 1, hn⟩) (iblk m c 1 ⟨n + 1, hn⟩)
    else k0_pay5 (iblk m c 0 ⟨n + 1, hn⟩) (iblk m c 1 ⟨n + 1, hn⟩) (colAcc c n (Nat.lt_of_succ_lt hn))

theorem colAcc_first (c : Dev nD) (t : Fin cfg0.N) (h0 : t.val % 16 = 0) :
    colAcc m c t.val t.isLt = k0_pay4 (iblk m c 0 t) (iblk m c 1 t) := by
  obtain ⟨n, hn⟩ := t
  cases n with
  | zero => exact rfl
  | succ n => exact (if_pos h0).trans rfl

theorem colAcc_later (c : Dev nD) (t : Fin cfg0.N) (h0 : ¬t.val % 16 = 0) :
    colAcc m c t.val t.isLt = k0_pay5 (iblk m c 0 t) (iblk m c 1 t) (colAcc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the pipeline on core `c`: the arrays as the region finds them; after the body at point `t`
    each input's buffer at its block, the row-minimum buffer at the row minima of the point's table, the
    column-minimum buffer at the running column minimum; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (k0_pay2 (iblk m c 0 t) (iblk m c 1 t) : Vec F S256x1 .f32)
    | ⟨3, _⟩ => colAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (k0_pay2 (iblk m c 0 t) (iblk m c 1 t) : Vec F S256x1 .f32) := by dsimp only [dats]
theorem after3 (c : Dev nD) (t : Fin cfg0.N) : (dats m 0 c).after 3 t = colAcc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later tile the column-minimum window's current buffer holds what the body left at the point before: the
    window is written back only after the last tile of a half, so not between the two points, and it is never idle. -/
theorem before3_later (c : Dev nD) (t : Fin cfg0.N) (h0 : ¬t.val % 16 = 0) (d) :
    (dats m 0 c).before 3 t d = colAcc m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    colmin_live (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; `t mod 16` says which run applies, and at a later
    tile the column-minimum buffer holds the running minimum of the point before; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [colAcc_first m c t h0]
    iintro ⟨HΦ, Ho, ⟨%d0, H0⟩, ⟨%d1, H1⟩, ⟨%d2, H2⟩, ⟨%d3, H3⟩⟩
    iapply ((runFirst c (grid0.coords t) _ (hs0 t) _ (hs1 t) _ (hs2 t) _ (hs3 t) ((first_iff t).mpr h0) (fun h => ((later_iff t).mp h) h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact firstRow_eq c _ _ _ _ _ _ _ _ _ _ _ _ _ _ _
    unfold owns; iexists _; isplitr
    swap; · iexact H3
    ipureintro; exact firstCol_eq c _ _ _ _ _ _ _ _ _ _ _ _ _ _ _
  · rw [colAcc_later m c t h0]
    simp only [before3_later m c t h0]
    iintro ⟨HΦ, Ho, ⟨%d0, H0⟩, ⟨%d1, H1⟩, ⟨%d2, H2⟩, ⟨%d3, H3⟩⟩
    iapply ((runLater c (grid0.coords t) _ (hs0 t) _ (hs1 t) _ (hs2 t) _ (hs3 t) (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact laterRow_eq c _ _ _ _ _ _ _ _ _ _ _ _ _ _ _ _
    unfold owns; iexists _; isplitr
    swap; · iexact H3
    ipureintro; exact laterCol_eq c _ _ _ _ _ _ _ _ _ _ _ _ _ _ _ _

/-- The library's body obligation, at every point (the column-minimum window is live at every point, so the obligation's
    case distinction on idleness falls to its stored case). -/
theorem body_obligation (c : Dev nD) : BodyObligation (dats (F := F) m 0 c) (defs₀ (F := F)) Variants.none () Set.univ := fun t => by
  rw [bigSep_W0, bigSep_W0]
  dsimp only
  rw [show idle0 3 (grid0.coords t) = false from colmin_live (grid0.coords t)]
  exact sound_body m c t

/-! ## The run and the frame -/

set_option backward.isDefEq.respectTransparency.types false in
/-- From any memory with zero counters every weakly fair execution of the program terminates, and every final state has
    every array of the pipeline at what the library computes from the proof data and every other unscoped buffer as
    the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Consts.lean ====
/-
  The float constants the two programs spell, as the extended reals their bit patterns denote: the pattern of
  positive infinity is the top element, the pattern of 2.0 the real number two.
-/
import Idealize.ShloMosaic.PureOps.Ideal
import Idealize.ShloMosaic.PureOps.Ideal.Laws

noncomputable section

namespace Cert.Chamfer

open Idealize.ShloMosaic

/-- The pattern `0x7F800000` denotes `+∞`, the top extended real. -/
theorem ofBits_inf : Ideal.ofBits .f32 0x7F800000#32 = (⊤ : EReal) := by
  simp [Ideal.ofBits, Ideal.ieee]

/-- The pattern `0x40000000` denotes the real number `2`. -/
theorem ofBits_two : Ideal.ofBits .f32 0x40000000#32 = ((2 : ℝ) : EReal) := by
  simp [Ideal.ofBits, Ideal.ieee, -EReal.coe_mul]; norm_num

/-- The pattern of `+0.0` denotes `0`. -/
theorem ofBits_zero : Ideal.ofBits .f32 0x00000000#32 = (0 : EReal) := Ideal.ofBits_zero_f32

end Cert.Chamfer

end
-- ==== Proof.Algebra.lean ====
/-
  The arithmetic that joins the two programs.

  For two points x, y of real 3-space the squared distance written coordinate by coordinate,
  (x₀ − y₀)² + (x₁ − y₁)² + (x₂ − y₂)², is |x|² + |y|² − 2 x·y, and it is never negative, so clamping the expanded form
  below at zero changes nothing. This needs the coordinates to be real numbers: on the extended reals the expansion
  fails at infinities.

  A minimum over a finite family is determined by its lower bounds: two extended reals with the same lower bounds are
  equal, which is how the minima the two programs take in different groupings are compared.
-/
import Mathlib

noncomputable section

namespace Cert.Chamfer

/-- |x|² + |y|² − 2 x·y clamped below at zero is the coordinatewise squared distance, for real coordinates (the zero
    summands are the initial values of the sums as the reference takes them). -/
theorem dist_identity (x0 x1 x2 y0 y1 y2 : ℝ) :
    max ((((0 : EReal) + (((x0 : EReal) * x0 + (x1 : EReal) * x1) + (x2 : EReal) * x2))
          + ((0 : EReal) + (((y0 : EReal) * y0 + (y1 : EReal) * y1) + (y2 : EReal) * y2)))
        - ((2 : ℝ) : EReal) * ((((x0 : EReal) * y0) + (x1 : EReal) * y1) + (x2 : EReal) * y2)) 0
      = ((((x0 : EReal) - y0) * ((x0 : EReal) - y0) + ((x1 : EReal) - y1) * ((x1 : EReal) - y1))
          + ((x2 : EReal) - y2) * ((x2 : EReal) - y2)) := by
  have key : (0 + (x0 * x0 + x1 * x1 + x2 * x2) + (0 + (y0 * y0 + y1 * y1 + y2 * y2)) - 2 * (x0 * y0 + x1 * y1 + x2 * y2) : ℝ)
      = (x0 - y0) * (x0 - y0) + (x1 - y1) * (x1 - y1) + (x2 - y2) * (x2 - y2) := by ring
  have hpos : (0 : ℝ) ≤ (x0 - y0) * (x0 - y0) + (x1 - y1) * (x1 - y1) + (x2 - y2) * (x2 - y2) :=
    add_nonneg (add_nonneg (mul_self_nonneg _) (mul_self_nonneg _)) (mul_self_nonneg _)
  have e : ((((0 : EReal) + (((x0 : EReal) * x0 + (x1 : EReal) * x1) + (x2 : EReal) * x2))
          + ((0 : EReal) + (((y0 : EReal) * y0 + (y1 : EReal) * y1) + (y2 : EReal) * y2)))
        - ((2 : ℝ) : EReal) * ((((x0 : EReal) * y0) + (x1 : EReal) * y1) + (x2 : EReal) * y2))
      = (((x0 - y0) * (x0 - y0) + (x1 - y1) * (x1 - y1) + (x2 - y2) * (x2 - y2) : ℝ) : EReal) := by
    rw [← key]; push_cast; rfl
  rw [e, max_eq_left (by exact_mod_cast hpos)]
  push_cast; rfl

/-- Two extended reals with the same lower bounds among a family's common lower bounds are equal. -/
theorem eq_of_lower_bounds {ι κ : Type} {a b : EReal} (f : ι → EReal) (g : κ → EReal)
    (ha : ∀ x, x ≤ a ↔ ∀ i, x ≤ f i) (hb : ∀ x, x ≤ b ↔ ∀ k, x ≤ g k)
    (hfg : ∀ x, (∀ i, x ≤ f i) ↔ ∀ k, x ≤ g k) : a = b :=
  eq_of_forall_le_iff fun x => (ha x).trans ((hfg x).trans (hb x).symm)

/-- The lower bounds of a `min`-fold from the top element over a whole finite index type are the common lower bounds
    of the family. -/
theorem le_fold_min_top {ι : Type} [Fintype ι] (f : ι → EReal) (x : EReal) :
    x ≤ (Finset.univ : Finset ι).fold min (⊤ : EReal) f ↔ ∀ i, x ≤ f i := by
  rw [Finset.le_fold_min]
  exact ⟨fun h i => h.2 i (Finset.mem_univ i), fun h => ⟨le_top, fun i _ => h i⟩⟩

end Cert.Chamfer

end
-- ==== Proof.Pay.lean ====
/-
  The body's arithmetic at an index, read at the extended reals.

  The body forms, from a 256 × 3 tile of the first point set and the whole 3 × 8192 transposed second point set, the
  256 × 8192 table of squared distances: entry (p, q) is the sum over the three coordinates of the squared difference
  of the tile's point p and the second set's point q. Its row minima go to the row-minimum window; its column minima
  start, or lower, the running column minimum. A minimum over an axis is carried by its lower bounds: a number is below
  the minimum exactly when it is below every entry of the row, or of the column.
-/
import proofs.«155098_j43095701848170_2_alg».proof.Proof.Gen.KernelIdeal.Skeleton
import proofs.«155098_j43095701848170_2_alg».proof.Proof.Consts
import proofs.«155098_j43095701848170_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Cert.Chamfer
open Idealize.ShloMosaic Idealize.ShloMosaic.ValueIdx

/-- A column of the 256 × 3 tile, spread along the rows of the 256 × 8192 table: entry (p, q) is the tile's (p, d). -/
theorem spread_col {α : Type} (v0 : S256x3.Idx → α) (d : Fin 3) (off : Fin 2 → Nat) (hoff : off = ![0, d.val])
    (hs : S256x3.Slices off S256x1) (hb : S256x1.Broadcasts S256x8192) (p : Fin 256) (q : Fin 8192) :
    broadcastTo S256x8192 (extractStridedSlice S256x1 off v0 hs) hb (ix2 p q) = v0 (ix2 p d) := by
  subst hoff
  rw [broadcastTo_apply _ hb (ix2 p q) (ix2 p (0 : Fin 1)) (fun a => by match a with | ⟨0, _⟩ => rfl | ⟨1, _⟩ => rfl)]
  exact extractStridedSlice_apply _ _ hs (ix2 p (0 : Fin 1)) (ix2 p d) (fun a => by
    match a with
    | ⟨0, _⟩ => show p.val = 0 + p.val; omega
    | ⟨1, _⟩ => show d.val = d.val + 0; omega)

/-- A row of the 3 × 8192 transposed point set, spread down the columns of the table: entry (p, q) is its (d, q). -/
theorem spread_row {α : Type} (v1 : S3x8192.Idx → α) (d : Fin 3) (off : Fin 2 → Nat) (hoff : off = ![d.val, 0])
    (hs : S3x8192.Slices off S1x8192) (hb : S1x8192.Broadcasts S256x8192) (p : Fin 256) (q : Fin 8192) :
    broadcastTo S256x8192 (extractStridedSlice S1x8192 off v1 hs) hb (ix2 p q) = v1 (ix2 d q) := by
  subst hoff
  rw [broadcastTo_apply _ hb (ix2 p q) (ix2 (0 : Fin 1) q) (fun a => by match a with | ⟨0, _⟩ => rfl | ⟨1, _⟩ => rfl)]
  exact extractStridedSlice_apply _ _ hs (ix2 (0 : Fin 1) q) (ix2 d q) (fun a => by
    match a with
    | ⟨0, _⟩ => show d.val = d.val + 0; omega
    | ⟨1, _⟩ => show q.val = 0 + q.val; omega)

/-- The table of squared distances at (p, q): the sum over the three coordinates of the squared difference of the
    tile's point p and the other set's point q, the three terms added in order. -/
theorem table_apply (v0 : Vec Ideal S256x3 .f32) (v1 : Vec Ideal S3x8192 .f32) (p : Fin 256) (q : Fin 8192) :
    k0_pay1 (F := Ideal) v0 v1 (ix2 p q)
      = ((v0 (ix2 p 0) - v1 (ix2 0 q)) * (v0 (ix2 p 0) - v1 (ix2 0 q))
          + (v0 (ix2 p 1) - v1 (ix2 1 q)) * (v0 (ix2 p 1) - v1 (ix2 1 q)))
        + (v0 (ix2 p 2) - v1 (ix2 2 q)) * (v0 (ix2 p 2) - v1 (ix2 2 q)) := by
  unfold k0_pay1
  simp only [addf_apply, mulf_apply, subf_apply, shapeCast_self]
  rw [spread_col v0 0 ![0, 0] rfl, spread_col v0 1 ![0, 1] rfl, spread_col v0 2 ![0, 2] rfl,
    spread_row v1 0 ![0, 0] rfl, spread_row v1 1 ![1, 0] rfl, spread_row v1 2 ![2, 0] rfl]

/-- A column vector's entry: a [256] vector cast to [256, 1] reads, at (p, u), the vector at p. -/
theorem cast_col {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_one, Shape.rowMajor_val_two]
    show p.val = p.val * 1 + u.val
    omega)

/-- A reduced row index with column q put back is (p, q); -/
theorem lift_cols (h : S256x8192.Reduces [1] S256) (p : Fin 256) (q : Fin (S256x8192.size 1)) :
    h.lift (ix1 p) q = ix2 p (⟨q.val, q.isLt⟩ : Fin 8192) := by
  funext c; apply Fin.ext
  fin_cases c <;> rfl

/-- a reduced column index with row p put back is (p, q). -/
theorem lift_rows (h : S256x8192.Reduces [0] S8192) (q : Fin 8192) (p : Fin (S256x8192.size 0)) :
    h.lift (ix1 q) p = ix2 (⟨p.val, p.isLt⟩ : Fin 256) q := by
  funext c; apply Fin.ext
  fin_cases c <;> rfl

theorem min_is_min : (FloatOps.minimumf : Ideal .f32 → Ideal .f32 → Ideal .f32) = min := rfl

/-- A minimum reduction from the pattern of +∞, at a reduced index: the `min`-fold from the top element over the
    indices that reduce to it. -/
theorem minred_fold {s t : Shape} {axes : List (Fin s.rank)} (src : FVec Ideal s .f32) (h : s.Reduces axes t)
    (hφ : FKind.Formats .f32) (hacc : (0x7F800000#32 : BitVec 32) = 0x7F800000#32) (j : t.Idx) :
    multiReduction .minimumf axes t src 0x7F800000#32 h hφ hacc j
      = (Finset.univ.filter fun i => h.drop i = j).fold min (⊤ : EReal) src := by
  refine (multiReduction_minimumf_eq_fold src _ h hφ hacc j).trans ?_
  show Finset.fold min (Ideal.ofBits .f32 0x7F800000#32) src _ = _
  rw [ofBits_inf]

/-- The lower bounds of a row minimum of the table are the common lower bounds of the row's entries. -/
theorem rowmin_lower (v0 : Vec Ideal S256x3 .f32) (v1 : Vec Ideal S3x8192 .f32) (p : Fin 256) (u : Fin 1) (x : EReal) :
    x ≤ k0_pay2 (F := Ideal) v0 v1 (ix2 p u) ↔ ∀ q : Fin 8192, x ≤ k0_pay1 (F := Ideal) v0 v1 (ix2 p q) := by
  have e : k0_pay2 (F := Ideal) v0 v1 (ix2 p u)
      = (Finset.univ : Finset (Fin (S256x8192.size 1))).fold min (⊤ : EReal)
          ((k0_pay1 (F := Ideal) v0 v1) ∘ reduces_S256x8192_S256.lift (ix1 p)) := by
    unfold k0_pay2
    refine (cast_col _ _ p u).trans ?_
    refine (minred_fold (k0_pay1 (F := Ideal) v0 v1) reduces_S256x8192_S256 _ _ (ix1 p)).trans ?_
    exact reduces_S256x8192_S256.fold_filter_drop_single min _ _ _
  rw [e, le_fold_min_top]
  exact ⟨fun h q => by have := h (⟨q.val, q.isLt⟩ : Fin (S256x8192.size 1)); rwa [Function.comp_apply, lift_cols] at this,
    fun h q => by rw [Function.comp_apply, lift_cols]; exact h _⟩

/-- The lower bounds of a column minimum of the table are the common lower bounds of the column's entries. -/
theorem colmin_lower (v0 : Vec Ideal S256x3 .f32) (v1 : Vec Ideal S3x8192 .f32) (u : Fin 1) (q : Fin 8192) (x : EReal) :
    x ≤ k0_pay3 (F := Ideal) v0 v1 (ix2 u q) ↔ ∀ p : Fin 256, x ≤ k0_pay1 (F := Ideal) v0 v1 (ix2 p q) := by
  have e : k0_pay3 (F := Ideal) v0 v1 (ix2 u q)
      = (Finset.univ : Finset (Fin (S256x8192.size 0))).fold min (⊤ : EReal)
          ((k0_pay1 (F := Ideal) v0 v1) ∘ reduces_S256x8192_S8192.lift (ix1 q)) := by
    unfold k0_pay3
    refine (shapeCast_a_1a_apply _ _ u q).trans ?_
    refine (minred_fold (k0_pay1 (F := Ideal) v0 v1) reduces_S256x8192_S8192 _ _ (ix1 q)).trans ?_
    exact reduces_S256x8192_S8192.fold_filter_drop_single min _ _ _
  rw [e, le_fold_min_top]
  exact ⟨fun h p => by have := h (⟨p.val, p.isLt⟩ : Fin (S256x8192.size 0)); rwa [Function.comp_apply, lift_rows] at this,
    fun h p => by rw [Function.comp_apply, lift_rows]; exact h _⟩

/-- The column minima as the [1, 1, 8192] block the first tile stores. -/
theorem start_apply (v0 : Vec Ideal S256x3 .f32) (v1 : Vec Ideal S3x8192 .f32) (u w : Fin 1) (q : Fin 8192) :
    k0_pay4 (F := Ideal) v0 v1 (ix3 u w q) = k0_pay3 (F := Ideal) v0 v1 (ix2 w q) := by
  unfold k0_pay4
  exact shapeCast_ab_1ab_apply _ _ u w q

/-- The block a later tile stores: entrywise, the smaller of what the buffer held and the tile's column minimum. -/
theorem lower_apply (v0 : Vec Ideal S256x3 .f32) (v1 : Vec Ideal S3x8192 .f32) (acc : Vec Ideal S1x1x8192 .f32) (u w : Fin 1) (q : Fin 8192) :
    k0_pay5 (F := Ideal) v0 v1 acc (ix3 u w q) = min (acc (ix3 (0 : Fin 1) w q)) (k0_pay3 (F := Ideal) v0 v1 (ix2 w q)) := by
  unfold k0_pay5
  rw [shapeCast_ab_1ab_apply _ _ u w q, minimumf_apply, shapeCast_1ab_ab_apply]

end Cert.KernelIdeal.Pay

end
-- ==== Proof.Spec.lean ====
/-
  What both programs compute, as one function of the two point sets.

  For point sets A, B of 8192 points of 3-space (arrays over the extended reals), `sq A B n k` is the squared
  distance of A's point n and B's point k written coordinate by coordinate. The result is the mean over n of the least
  `sq A B n k` over k, plus the mean over k of the least `sq A B n k` over n; the means are the sums from the zero
  pattern divided by the pattern of 8192, both kept as the words the programs spell.
-/
import proofs.«155098_j43095701848170_2_alg».proof.Proof.Consts
import proofs.«155098_j43095701848170_2_alg».proof.Proof.Algebra
import Idealize.ShloMosaic.Lib.ValueIdx
import Idealize.ShloMosaic.PureOps.Ideal

noncomputable section

namespace Cert.Chamfer

open Idealize.ShloMosaic Idealize.ShloMosaic.ValueIdx

/-- A set of 8192 points of 3-space over the extended reals. -/
abbrev Pts : Type := (⟨2, ![8192, 3]⟩ : Shape).Idx → EReal

/-- Every coordinate of every point is a real number. -/
def Finite (A : Pts) : Prop := ∀ i, ∃ r : ℝ, A i = (r : EReal)

/-- The squared distance of A's point n and B's point k, the three coordinates' terms added in order. -/
def sq (A B : Pts) (n k : Fin 8192) : EReal :=
  ((A (ix2 n 0) - B (ix2 k 0)) * (A (ix2 n 0) - B (ix2 k 0))
    + (A (ix2 n 1) - B (ix2 k 1)) * (A (ix2 n 1) - B (ix2 k 1)))
  + (A (ix2 n 2) - B (ix2 k 2)) * (A (ix2 n 2) - B (ix2 k 2))

/-- The least squared distance from A's point n to a point of B; -/
def rowInf (A B : Pts) (n : Fin 8192) : EReal := Finset.univ.inf fun k => sq A B n k
/-- the least squared distance from B's point k to a point of A; -/
def colInf (A B : Pts) (k : Fin 8192) : EReal := Finset.univ.inf fun n => sq A B n k
/-- and to a point of one half of A (the first 4096 points, or the last). -/
def halfInf (A B : Pts) (h : Fin 2) (k : Fin 8192) : EReal :=
  (Finset.univ.filter fun r : Fin 8192 => r.val / 4096 = h.val).inf fun r => sq A B r k

theorem le_rowInf (A B : Pts) (n : Fin 8192) (x : EReal) : x ≤ rowInf A B n ↔ ∀ k, x ≤ sq A B n k := by
  unfold rowInf; rw [Finset.le_inf_iff]
  exact ⟨fun h k => h k (Finset.mem_univ k), fun h k _ => h k⟩
theorem le_colInf (A B : Pts) (k : Fin 8192) (x : EReal) : x ≤ colInf A B k ↔ ∀ n, x ≤ sq A B n k := by
  unfold colInf; rw [Finset.le_inf_iff]
  exact ⟨fun h n => h n (Finset.mem_univ n), fun h n _ => h n⟩
theorem le_halfInf (A B : Pts) (h : Fin 2) (k : Fin 8192) (x : EReal) :
    x ≤ halfInf A B h k ↔ ∀ r : Fin 8192, r.val / 4096 = h.val → x ≤ sq A B r k := by
  unfold halfInf; rw [Finset.le_inf_iff]
  exact ⟨fun g r hr => g r (Finset.mem_filter.mpr ⟨Finset.mem_univ r, hr⟩), fun g r hr => g r (Finset.mem_filter.mp hr).2⟩

/-- The least over all of A is the smaller of the leasts over its two halves (taken as a `min`-fold from the top). -/
theorem fold_halves (A B : Pts) (k : Fin 8192) :
    (Finset.univ : Finset (Fin 2)).fold min (⊤ : EReal) (fun h => halfInf A B h k) = colInf A B k :=
  eq_of_forall_le_iff fun x => by
    rw [le_fold_min_top, le_colInf]
    constructor
    · intro g n
      exact (le_halfInf A B ⟨n.val / 4096, by have := n.isLt; omega⟩ k x).mp (g _) n rfl
    · intro g h
      exact (le_halfInf A B h k x).mpr fun r _ => g r

/-- The result both programs compute. -/
def spec (A B : Pts) : EReal :=
  Ideal.div (Ideal.ofBits .f32 0x00000000#32 + ∑ n : Fin 8192, rowInf A B n) (Ideal.ofBits .f32 0x46000000#32)
  + Ideal.div (Ideal.ofBits .f32 0x00000000#32 + ∑ k : Fin 8192, colInf A B k) (Ideal.ofBits .f32 0x46000000#32)

/-! ## Sums over one-axis arrays and over arrays with a unit axis, as sums over the long axis -/

theorem sum_vec {M : Type} [AddCommMonoid M] {n : Nat} (f : (⟨1, ![n]⟩ : Shape).Idx → M) :
    ∑ i, f i = ∑ a : Fin n, f (ix1 a) := by
  refine (Fintype.sum_equiv ⟨fun i => i 0, fun a => ix1 a, fun i => (eq_ix1 i).symm, fun _ => rfl⟩ _ _ fun i => ?_)
  exact congrArg f (eq_ix1 i)

theorem sum_col {M : Type} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

theorem sum_row {M : Type} [AddCommMonoid M] {n : Nat} (f : (⟨2, ![1, n]⟩ : Shape).Idx → M) :
    ∑ i, f i = ∑ b : Fin n, f (ix2 (0 : Fin 1) b) := by
  rw [sum_idx2]
  exact Fin.sum_univ_one _

end Cert.Chamfer

end
-- ==== Proof.KVal.lean ====
/-
  What the idealized kernel's program computes.

  The region leaves two arrays. Row n of the row-minimum array is written by the point whose tile holds the first
  set's point n, and holds the least squared distance from that point to the second set. Block h of the
  column-minimum array is written back after the last tile of half h and holds, at k, the least squared distance to the
  second set's point k from a point of that half: the running minimum, followed through the tiles by its lower bounds.
  The host operations after the region add the mean of the first array to the mean of the entrywise minimum of the
  second array's two blocks, which is the least over the whole first set.
-/
import proofs.«155098_j43095701848170_2_alg».proof.Proof.IdealBody.Body
import proofs.«155098_j43095701848170_2_alg».proof.Proof.Pay
import proofs.«155098_j43095701848170_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand Cert.KernelIdeal.Pay Cert.Chamfer

variable (m : (ℓ : Loc nD τ sig) → Buf (Elt Ideal) ℓ) (ρ : Dev nD → PrngReg)

/-- The two point sets as launched. -/
abbrev ptsA (c : Dev nD) : Pts := m ((c : Thread nD τ).loc main_arg0)
abbrev ptsB (c : Dev nD) : Pts := m ((c : Thread nD τ).loc main_arg1)

/-! ## The input blocks, as entries of the two point sets -/

/-- The region finds, in the transposed array, entry (d, q) at the second point set's (q, d). -/
theorem entry_v0 (c : Dev nD) (d : Fin 3) (q : Fin 8192) :
    (V m c main_v0 : S3x8192.Idx → EReal) (ix2 d q) = ptsB m c (ix2 q d) := by
  have e : (V m c main_v0 : S3x8192.Idx → EReal)
      = transpose S3x8192 [1, 0] (m ((c : Thread nD τ).loc main_arg1)) transposes_S8192x3_S3x8192_1_0 := by
    show StableHlo.after hostOps0 (fun b => m (c, b)) (Proc.devRef .tc main_v0) = _
    after_results
  rw [e]
  exact transpose_apply [1, 0] _ transposes_S8192x3_S3x8192_1_0 (ix2 d q) (ix2 q d)
    (fun b => match b with | ⟨0, _⟩ => rfl | ⟨1, _⟩ => rfl)

/-- The windows' block indices over the grid: the first set's tile and the row minima move with the point, the
    transposed second set stays, the column minima move with the half. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 16 ∧ win0_3.index t (1 : Fin 3) = 0 ∧ win0_3.index t (2 : Fin 3) = 0 :=
  (by decide +kernel : ∀ t : Fin grid0.N, _)

/-- The first set's tile at point t holds rows 256 t … 256 t + 255 of the first point set. -/
theorem blk0_apply (c : Dev nD) (t : Fin cfg0.N) (p : Fin 256) (d : Fin 3) (r : Fin 8192) (hr : r.val = 256 * t.val + p.val) :
    (iblk m c 0 t : Vec Ideal S256x3 .f32) (ix2 p d) = ptsA m c (ix2 r d) := by
  obtain ⟨e0, e1, -⟩ := idx_in t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * p.val = r.val; omega
  | ⟨1, _⟩ => show win0_0.index t (1 : Fin 2) * 3 + 1 * d.val = d.val; omega

/-- The second window's block at any point is the whole transposed second point set. -/
theorem blk1_apply (c : Dev nD) (t : Fin cfg0.N) (d : Fin 3) (q : Fin 8192) :
    (iblk m c 1 t : Vec Ideal S3x8192 .f32) (ix2 d q) = ptsB m c (ix2 q d) := by
  obtain ⟨-, -, e2, e3, -⟩ := idx_in t
  unfold iblk
  rw [View.read_apply]
  show (V m c main_v0 : S3x8192.Idx → EReal) _ = _
  refine Eq.trans (congrArg (V m c main_v0 : S3x8192.Idx → EReal) (funext fun a => Fin.ext ?_)) (entry_v0 m c d q)
  match a with
  | ⟨0, _⟩ => show win0_1.index t (0 : Fin 2) * 3 + 1 * d.val = d.val; omega
  | ⟨1, _⟩ => show win0_1.index t (1 : Fin 2) * 8192 + 1 * q.val = q.val; omega

/-- The table of point t at (p, q) is the squared distance of the first set's point 256 t + p and the second set's q. -/
theorem table_at (c : Dev nD) (t : Fin cfg0.N) (p : Fin 256) (q : Fin 8192) (r : Fin 8192) (hr : r.val = 256 * t.val + p.val) :
    k0_pay1 (F := Ideal) (iblk m c 0 t) (iblk m c 1 t) (ix2 p q) = sq (ptsA m c) (ptsB m c) r q := by
  refine (table_apply (iblk m c 0 t) (iblk m c 1 t) p q).trans ?_
  rw [blk0_apply m c t p 0 r hr, blk0_apply m c t p 1 r hr, blk0_apply m c t p 2 r hr,
    blk1_apply m c t 0 q, blk1_apply m c t 1 q, blk1_apply m c t 2 q]
  rfl

/-- The row minimum point t stores at row p is the least squared distance from the first set's point 256 t + p. -/
theorem row_eq (c : Dev nD) (t : Fin cfg0.N) (p : Fin 256) (u : Fin 1) (r : Fin 8192) (hr : r.val = 256 * t.val + p.val) :
    k0_pay2 (F := Ideal) (iblk m c 0 t) (iblk m c 1 t) (ix2 p u) = rowInf (ptsA m c) (ptsB m c) r :=
  eq_of_forall_le_iff fun x =>
    ((rowmin_lower (iblk m c 0 t) (iblk m c 1 t) p u x).trans
      (forall_congr' fun q => by rw [table_at m c t p q r hr])).trans (le_rowInf _ _ r x).symm

/-- The lower bounds of the tile's column minimum at q: the numbers below every squared distance from a point of the
    tile's 256 rows to the second set's point q. -/
theorem tile_lower (c : Dev nD) (t : Fin cfg0.N) (u : Fin 1) (q : Fin 8192) (x : EReal) :
    x ≤ k0_pay3 (F := Ideal) (iblk m c 0 t) (iblk m c 1 t) (ix2 u q)
      ↔ ∀ r : Fin 8192, r.val / 256 = t.val → x ≤ sq (ptsA m c) (ptsB m c) r q := by
  have hN : t.val < 32 := lt_of_lt_of_eq t.isLt (show cfg0.N = 32 from N_0)
  refine (colmin_lower (iblk m c 0 t) (iblk m c 1 t) u q x).trans ?_
  constructor
  · intro h r hr
    have := h ⟨r.val % 256, Nat.mod_lt _ (by norm_num)⟩
    rwa [table_at m c t _ q r (by show r.val = 256 * t.val + r.val % 256; omega)] at this
  · intro h p
    rw [table_at m c t p q ⟨256 * t.val + p.val, by have := p.isLt; omega⟩ rfl]
    exact h _ (by show (256 * t.val + p.val) / 256 = t.val; have := p.isLt; omega)

/-! ## The running column minimum, by its lower bounds -/

/-- After the body at position n the column-minimum buffer's entry q has, as lower bounds, the numbers below every
    squared distance to the second set's q from a row of the tiles of n's half walked so far. -/
theorem acc_lower (c : Dev nD) : ∀ (n : ℕ) (hn : n < cfg0.N) (u w : Fin 1) (q : Fin 8192) (x : EReal),
    x ≤ colAcc m c n hn (ix3 u w q)
      ↔ ∀ r : Fin 8192, 16 * (n / 16) ≤ r.val / 256 → r.val / 256 ≤ n → x ≤ sq (ptsA m c) (ptsB m c) r q
  | 0, hn, u, w, q, x => by
    rw [colAcc_first m c ⟨0, hn⟩ rfl, start_apply]
    refine (tile_lower m c ⟨0, hn⟩ w q x).trans ?_
    exact forall_congr' fun r => ⟨fun h _ h2 => h (by show r.val / 256 = 0; omega), fun h h1 => h (by omega) (le_of_eq h1)⟩
  | n + 1, hn, u, w, q, x => by
    by_cases h0 : (n + 1) % 16 = 0
    · rw [colAcc_first m c ⟨n + 1, hn⟩ h0, start_apply]
      refine (tile_lower m c ⟨n + 1, hn⟩ w q x).trans ?_
      exact forall_congr' fun r => ⟨fun h h1 h2 => h (by show r.val / 256 = n + 1; omega),
        fun h h1 => h (by rw [h1]; show 16 * ((n + 1) / 16) ≤ n + 1; omega) (le_of_eq h1)⟩
    · rw [colAcc_later m c ⟨n + 1, hn⟩ h0, lower_apply, le_min_iff]
      refine (and_congr (acc_lower c n (Nat.lt_of_succ_lt hn) 0 w q x) (tile_lower m c ⟨n + 1, hn⟩ w q x)).trans ?_
      constructor
      · rintro ⟨h1, h2⟩ r hr1 hr2
        by_cases hr : r.val / 256 = n + 1
        · exact h2 r hr
        · exact h1 r (by omega) (by omega)
      · intro h
        exact ⟨fun r hr1 hr2 => h r (by omega) (by omega), fun r hr => h r (by rw [hr]; show 16 * ((n + 1) / 16) ≤ n + 1; omega) (le_of_eq hr)⟩

/-! ## The two output arrays after the region -/

/-- The row-minimum array the region leaves: entry (n, 0) is the least squared distance from the first set's point n. -/
def rowG (c : Dev nD) : S8192x1.Idx → EReal := fun i => rowInf (ptsA m c) (ptsB m c) ⟨(i 0).val, idx2_lt0 i⟩
/-- The column-minimum array the region leaves: entry (h, 0, k) is the least squared distance to the second set's
    point k from a point of half h of the first set. -/
def colG (c : Dev nD) : S2x1x8192.Idx → EReal := fun i => halfInf (ptsA m c) (ptsB m c) ⟨(i 0).val, (i 0).isLt⟩ ⟨(i 2).val, (i 2).isLt⟩

/-- What point t writes back of the row minima is block t of that array. -/
theorem flushed2_eq (c : Dev nD) (t : Fin cfg0.N) :
    (dats m 0 c).flushed 2 t = ((cfg0.win 2).blk t).view.read (Elt Ideal) (rowG m c) := by
  obtain ⟨-, -, -, -, e4, e5, -⟩ := idx_in t
  show (cfg0.win 2).cut (grid0.coords t) ((dats m 0 c).after 2 t) = _
  rw [after2]
  funext (y : S256x1.Idx)
  obtain ⟨p, u, rfl⟩ : ∃ (p : Fin 256) (u : Fin 1), y = ix2 p u := ⟨y 0, y 1, eq_ix2 y⟩
  show k0_pay2 (F := Ideal) (iblk m c 0 t) (iblk m c 1 t) (ix2 p u) = rowG m c (((cfg0.win 2).blk t).view.emb (ix2 p u))
  unfold rowG
  exact row_eq m c t p u _ (by show win0_2.index t (0 : Fin 2) * 256 + 1 * p.val = 256 * t.val + p.val; omega)

theorem mem_blk2 (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_0).slice (win0_2.rect t)).set ↔ _
  rw [View.set_slice_whole, Rect.mem_set_unit]
  exact Iff.rfl

/-- The row-minimum array after the region: every row is in the block of the point that holds its tile. -/
theorem final2 (c : Dev nD) : (dats m 0 c).arrAt 2 cfg0.N = rowG m c :=
  (dats m 0 c).arrAt_eq_of_cover 2 (rowG m c) (fun t _ => flushed2_eq m c t) fun i => by
    have hi0 : (i 0).val < 8192 := idx2_lt0 i
    have hi1 : (i 1).val < 1 := idx2_lt1 i
    obtain ⟨t, ht⟩ : ∃ t : Fin cfg0.N, t.val = (i 0).val / 256 := ⟨⟨(i 0).val / 256, by rw [show cfg0.N = 32 from N_0]; omega⟩, rfl⟩
    obtain ⟨-, -, -, -, e4, e5, -⟩ := idx_in t
    refine ⟨t, flush0_2 t, ?_⟩
    rw [mem_blk2]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 1 ≤ (i 1).val ∧ (i 1).val < win0_2.index t (1 : Fin 2) * 1 + 1; omega

/-- After the last tile of a half the running column minimum is the least over that half. -/
theorem acc_eq (c : Dev nD) (t : Fin cfg0.N) (h15 : t.val % 16 = 15) (u w : Fin 1) (q : Fin 8192) (h : Fin 2) (k : Fin 8192)
    (hh : h.val = t.val / 16) (hk : k.val = q.val) :
    colAcc m c t.val t.isLt (ix3 u w q) = halfInf (ptsA m c) (ptsB m c) h k := by
  have hN : t.val < 32 := lt_of_lt_of_eq t.isLt (show cfg0.N = 32 from N_0)
  obtain rfl : k = q := Fin.ext hk
  exact eq_of_forall_le_iff fun x => (acc_lower m c t.val t.isLt u w k x).trans
    ((forall_congr' fun r => ⟨fun g hr => g (by omega) (by omega), fun g h1 h2 => g (by omega)⟩).trans (le_halfInf _ _ h k x).symm)

/-- What a point that ends a half writes back of the column minima is that half's block of the array. -/
theorem flushed3_eq (c : Dev nD) (t : Fin cfg0.N) (hf : (cfg0.win 3).flush t = true) :
    (dats m 0 c).flushed 3 t = ((cfg0.win 3).blk t).view.read (Elt Ideal) (colG m c) := by
  have h15 : t.val % 16 = 15 := (flush0_3 t).mp hf
  obtain ⟨-, -, -, -, -, -, e6, e7, e8⟩ := idx_in t
  show (cfg0.win 3).cut (grid0.coords t) ((dats m 0 c).after 3 t) = _
  rw [after3]
  funext (y : S1x1x8192.Idx)
  obtain ⟨u, w, q, rfl⟩ : ∃ (u w : Fin 1) (q : Fin 8192), y = ix3 u w q := ⟨y 0, y 1, y 2, eq_ix3 y⟩
  show colAcc m c t.val t.isLt (ix3 u w q) = colG m c (((cfg0.win 3).blk t).view.emb (ix3 u w q))
  unfold colG
  exact acc_eq m c t h15 u w q _ _ (by show win0_3.index t (0 : Fin 3) * 1 + 1 * u.val = t.val / 16; omega)
    (by show win0_3.index t (2 : Fin 3) * 8192 + 1 * q.val = q.val; omega)

theorem mem_blk3 (t : Fin cfg0.N) (i : S2x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v1_1).slice (win0_3.rect t)).set ↔ _
  rw [View.set_slice_whole, Rect.mem_set_unit]
  exact Iff.rfl

/-- The column-minimum array after the region: half h's block is written back by the point that ends the half. -/
theorem final3 (c : Dev nD) : (dats m 0 c).arrAt 3 cfg0.N = colG m c :=
  (dats m 0 c).arrAt_eq_of_cover 3 (colG m c) (flushed3_eq m c) fun i => by
    have hi0 : (i 0).val < 2 := (i 0).isLt
    have hi1 : (i 1).val < 1 := (i 1).isLt
    have hi2 : (i 2).val < 8192 := (i 2).isLt
    obtain ⟨t, ht⟩ : ∃ t : Fin cfg0.N, t.val = 16 * (i 0).val + 15 := ⟨⟨16 * (i 0).val + 15, by rw [show cfg0.N = 32 from N_0]; omega⟩, rfl⟩
    obtain ⟨-, -, -, -, -, -, e6, e7, e8⟩ := idx_in t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 8192 ≤ (i 2).val ∧ (i 2).val < win0_3.index t (2 : Fin 3) * 8192 + 8192; omega

/-! ## The host operations after the region -/

/-- A sum over every axis, from an initial value: the initial value plus the sum of all entries. -/
theorem reduceAdd_all {s : Shape} {axes : List (Fin s.rank)} (h : s.ReducesTo axes S_) (x : s.Idx → EReal)
    (z : S_.Idx → EReal) (i : S_.Idx) :
    Host.reduceAdd (F := Ideal) (φ := .f32) x z h h_S_ i = z (Shape.Idx.first h_S_) + ∑ j, x j := by
  simp only [Host.reduceAdd, Ideal.hostReduceAdd_def]
  exact Ideal.hostReduceAdd_total h (fun b => b.elim0) x _ i

/-- A reduced index (u, k) of the column-minimum array with the half put back is (h, 0, k). -/
theorem lift_halves (h : S2x1x8192.Reduces [0] S1x8192) (u : Fin 1) (k : Fin 8192) (hh : Fin (S2x1x8192.size 0)) :
    h.lift (ix2 u k) hh = ix3 (⟨hh.val, hh.isLt⟩ : Fin 2) (0 : Fin 1) k := by
  funext a; apply Fin.ext
  match a with
  | ⟨0, _⟩ => rfl
  | ⟨1, _⟩ => show u.val = 0; omega
  | ⟨2, _⟩ => rfl

/-- The host's minimum over the two halves of the column-minimum array is the least over all of the first set. -/
theorem colred_apply (c : Dev nD) (u : Fin 1) (k : Fin 8192) :
    Host.reduce FloatOps.minimumf (colG m c) (constant (F := Ideal) S_ .f32 0x7F800000#32) reducesTo_S2x1x8192_S1x8192_d0 h_S_ (ix2 u k)
      = colInf (ptsA m c) (ptsB m c) k := by
  have hr : S2x1x8192.Reduces [0] S1x8192 := by decide
  rw [Host.reduce_eq_fold_single FloatOps.minimumf _ _ reducesTo_S2x1x8192_S1x8192_d0 hr h_S_ (ix2 u k)]
  show Finset.fold min (Ideal.ofBits .f32 0x7F800000#32) _ _ = _
  rw [ofBits_inf]
  refine eq_of_forall_le_iff fun x => ?_
  rw [le_fold_min_top, ← fold_halves, le_fold_min_top]
  exact ⟨fun g hh => by have := g (⟨hh.val, hh.isLt⟩ : Fin (S2x1x8192.size 0)); rwa [Function.comp_apply, lift_halves] at this,
    fun g hh => by rw [Function.comp_apply, lift_halves]; exact g _⟩

/-- The program's result: the host operations after the region, applied to the two arrays the region leaves, give the
    specification's value of the two point sets. -/
theorem tail_eq (c : Dev nD) :
    Pipeline.afterTail₀ cfgs (dats m) 0 (V0 m) [hostOps1] c main_v7 = fun _ => spec (ptsA m c) (ptsB m c) := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.tc.devRef main_v1_0)
      = rowG m c := (Pipeline.withArrays_arr spec0 launch0.win.arr_inj c _ _ 2).trans (final2 m c)
  have e3 : Pipeline.withArrays (cfgs 0).spec c (V0 m c) (fun w => (dats m 0 c).arrAt w (cfgs 0).N) (Proc.tc.devRef main_v1_1)
      = colG m c := (Pipeline.withArrays_arr spec0 launch0.win.arr_inj c _ _ 3).trans (final3 m c)
  rw [e2, e3]
  funext i
  show FloatOps.addf (FloatOps.hostDivf (Host.reduceAdd (rowG m c) _ _ _ i) _) (FloatOps.hostDivf (Host.reduceAdd (Host.reduce (FloatOps.minimumf (F := Ideal) (φ := .f32)) (colG m c) _ _ _) _ _ _ i) _) = _
  rw [reduceAdd_all, reduceAdd_all, sum_col, sum_row]
  simp only [colred_apply m c]
  rfl

/-- The run, read: the result at the specification's value, the two point sets unchanged. -/
theorem run : θ_run defs (onTc (τ := τ) (main (F := Ideal))) ⟨m, fun _ => 0, ρ⟩ fun r => ∀ c : Dev nD,
      r.2.mem ((c.tc : Thread nD τ).loc main_v7) = (fun _ => spec (ptsA m c) (ptsB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Val

end
-- ==== Proof.RefVal.lean ====
/-
  The reference, read at an index.

  The reference forms every squared distance as |a|² + |b|² − 2 a·b clamped below at zero, takes the least along each
  axis of the 8192 × 8192 table, and adds the two means. For point sets of real coordinates the clamped expansion is
  the coordinatewise squared distance, so each least is the one the specification names.
-/
import proofs.«155098_j43095701848170_2_alg».proof.Proof.Gen.ReferenceIdeal.Read
import proofs.«155098_j43095701848170_2_alg».proof.Proof.Spec
import Idealize.ShloMosaic.PureOps.Reduce

set_option maxRecDepth 16384

noncomputable section

namespace Cert.ReferenceIdeal.RefVal

open Cert.ReferenceIdeal Cert.ReferenceIdeal.Gen Cert.ReferenceIdeal.Read Cert.Chamfer
open Idealize.ShloMosaic Idealize.ShloMosaic.ValueIdx

/-- The clamped expansion at (n, k) is the squared distance of the two points, for real coordinates. -/
theorem dist_apply (x0 x1 : Pts) (h0 : Finite x0) (h1 : Finite x1) (n k : Fin 8192) :
    val_main_v15 (F := Ideal) x0 x1 (ix2 n k) = sq x0 x1 n k := by
  have e1 : ∀ d : Fin 3, idx_main_v1 (idx_main_v6 (idx_main_v8 (ix2 n k))) d = ix2 n d := fun d =>
    funext fun a => Fin.ext (by match a with | ⟨0, _⟩ => rfl | ⟨1, _⟩ => rfl)
  have e3 : ∀ d : Fin 3, idx_main_v3 (idx_main_v7 (idx_main_v9 (ix2 n k))) d = ix2 k d := fun d =>
    funext fun a => Fin.ext (by match a with | ⟨0, _⟩ => rfl | ⟨1, _⟩ => rfl)
  have el : ∀ d : Fin 3, lidx_main_v5 (ix2 n k) d = ix2 n d := fun d =>
    funext fun a => Fin.ext (by match a with | ⟨0, _⟩ => rfl | ⟨1, _⟩ => rfl)
  have er : ∀ d : Fin 3, idx_main_v4 (ridx_main_v5 (ix2 n k) d) = ix2 k d := fun d =>
    funext fun a => Fin.ext (by match a with | ⟨0, _⟩ => rfl | ⟨1, _⟩ => rfl)
  rw [val_main_v15_apply, val_main_v13_apply, val_main_v10_apply, val_main_v12_apply, val_main_v14_apply,
    val_main_cst_2_apply, val_main_v11_apply, val_main_cst_1_apply, val_main_v8_apply, val_main_v6_apply,
    val_main_v1_apply, val_main_v9_apply, val_main_v7_apply, val_main_v3_apply, val_main_v5_apply,
    val_main_cst_apply, val_main_cst_0_apply]
  simp only [Fin.sum_univ_three, val_main_v0_apply, val_main_v2_apply, val_main_v4_apply, e1, e3, el, er]
  obtain ⟨a0, ha0⟩ := h0 (ix2 n 0)
  obtain ⟨a1, ha1⟩ := h0 (ix2 n 1)
  obtain ⟨a2, ha2⟩ := h0 (ix2 n 2)
  obtain ⟨b0, hb0⟩ := h1 (ix2 k 0)
  obtain ⟨b1, hb1⟩ := h1 (ix2 k 1)
  obtain ⟨b2, hb2⟩ := h1 (ix2 k 2)
  have hz : (FloatOps.ofBits (F := Ideal) FTy.f32 0#32 : EReal) = 0 := ofBits_zero
  have h2 : (FloatOps.ofBits (F := Ideal) FTy.f32 1073741824#32 : EReal) = ((2 : ℝ) : EReal) := ofBits_two
  unfold Chamfer.sq
  rw [hz, h2, ha0, ha1, ha2, hb0, hb1, hb2]
  exact dist_identity a0 a1 a2 b0 b1 b2

/-- A reduced row index with column q put back is (n, q); -/
theorem lift_cols (h : S8192x8192.Reduces [1] S8192) (n : Fin 8192) (q : Fin (S8192x8192.size 1)) :
    h.lift (ix1 n) q = ix2 n (⟨q.val, q.isLt⟩ : Fin 8192) := by
  funext c; apply Fin.ext
  fin_cases c <;> rfl

/-- a reduced column index with row p put back is (p, k). -/
theorem lift_rows (h : S8192x8192.Reduces [0] S8192) (k : Fin 8192) (p : Fin (S8192x8192.size 0)) :
    h.lift (ix1 k) p = ix2 (⟨p.val, p.isLt⟩ : Fin 8192) k := by
  funext c; apply Fin.ext
  fin_cases c <;> rfl

/-- The reference's minimum along a row of its table is the least squared distance from the first set's point n; -/
theorem rowmin_apply (x0 x1 : Pts) (h0 : Finite x0) (h1 : Finite x1) (n : Fin 8192) :
    val_main_v16 (F := Ideal) x0 x1 (ix1 n) = rowInf x0 x1 n :=
  eq_of_forall_le_iff fun x => by
    have hr : S8192x8192.Reduces [1] S8192 := by decide
    unfold val_main_v16
    rw [Host.reduce_eq_fold_single FloatOps.minimumf _ _ reducesTo_S8192x8192_S8192_d1 hr h_S_ (ix1 n)]
    show x ≤ Finset.fold min (Ideal.ofBits .f32 0x7F800000#32) _ _ ↔ _
    rw [ofBits_inf, le_fold_min_top, le_rowInf]
    exact ⟨fun h q => by have := h (⟨q.val, q.isLt⟩ : Fin (S8192x8192.size 1)); rwa [Function.comp_apply, lift_cols, dist_apply x0 x1 h0 h1] at this,
      fun h q => by rw [Function.comp_apply, lift_cols, dist_apply x0 x1 h0 h1]; exact h _⟩

/-- and along a column, the least squared distance from the second set's point k. -/
theorem colmin_apply (x0 x1 : Pts) (h0 : Finite x0) (h1 : Finite x1) (k : Fin 8192) :
    val_main_v19 (F := Ideal) x0 x1 (ix1 k) = colInf x0 x1 k :=
  eq_of_forall_le_iff fun x => by
    have hr : S8192x8192.Reduces [0] S8192 := by decide
    unfold val_main_v19
    rw [Host.reduce_eq_fold_single FloatOps.minimumf _ _ reducesTo_S8192x8192_S8192_d0 hr h_S_ (ix1 k)]
    show x ≤ Finset.fold min (Ideal.ofBits .f32 0x7F800000#32) _ _ ↔ _
    rw [ofBits_inf, le_fold_min_top, le_colInf]
    exact ⟨fun h p => by have := h (⟨p.val, p.isLt⟩ : Fin (S8192x8192.size 0)); rwa [Function.comp_apply, lift_rows, dist_apply x0 x1 h0 h1] at this,
      fun h p => by rw [Function.comp_apply, lift_rows, dist_apply x0 x1 h0 h1]; exact h _⟩

/-- The reference's result, for point sets of real coordinates, is the specification's. -/
theorem result_eq (x0 x1 : Pts) (h0 : Finite x0) (h1 : Finite x1) :
    val_main_v22 (F := Ideal) x0 x1 = fun _ => spec x0 x1 := by
  funext i
  rw [val_main_v22_apply, val_main_v18_apply, val_main_v21_apply, val_main_v17_apply, val_main_v20_apply,
    val_main_cst_5_apply, val_main_cst_8_apply, val_main_cst_4_apply, val_main_cst_7_apply, sum_vec, sum_vec]
  simp only [rowmin_apply x0 x1 h0 h1, colmin_apply x0 x1 h0 h1]
  rfl

end Cert.ReferenceIdeal.RefVal

end
-- ==== Proof.PreFinite.lean ====
/-
  From the precondition to real coordinates.

  The precondition says that every entry of both point sets has absolute value strictly below +∞. On the extended
  reals the absolute value of +∞ and of −∞ is +∞, so every entry is a real number.
-/
import proofs.«155098_j43095701848170_2_alg».proof.Pre_finite_inputs
import proofs.«155098_j43095701848170_2_alg».proof.Proof.Gen.Pre_finite_inputs
import proofs.«155098_j43095701848170_2_alg».proof.Proof.Spec
import Idealize.ShloMosaic.Lib.ReduceAll
import Idealize.ShloMosaic.Lib.Affine
import Idealize.ShloMosaic.Lib.Pipeline.Value

noncomputable section

namespace Cert.Chamfer

open Idealize.ShloMosaic Idealize.ShloMosaic.ValueIdx

/-- An extended real whose absolute value is strictly below the top element is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The scalar shape has one index. -/
instance : Subsingleton Cert.Pre_finite_inputs.S_.Idx := ⟨fun a b => funext fun d => d.elim0⟩

/-- Under the precondition both point sets have real coordinates. -/
theorem finite_of_pre (x0 x1 : Pts)
    (h : Cert.Pre_finite_inputs.fn (F := Ideal) x0 x1 = fun _ => 1#1) : Finite x0 ∧ Finite x1 := by
  have h0 := congrFun h ix0
  dsimp only [Cert.Pre_finite_inputs.fn] at h0
  obtain ⟨ha, hb⟩ := IntOp.andi_eq_one.1 h0
  have key : ∀ (x : Pts) (i : (⟨2, ![8192, 3]⟩ : Shape).Idx)
      (hi : Ideal.cmp .olt (max (x i) (-(x i))) (Ideal.ofBits .f32 0x7F800000#32) = 1#1), ∃ r : ℝ, x i = (r : EReal) := by
    intro x i hi
    rw [ofBits_inf] at hi
    refine real_of_abs_lt_top _ ?_
    by_contra hn
    simp [Ideal.cmp, hn] at hi
  exact ⟨fun i => key x0 i (Host.reduce_andi_all _ _ _ _ _ ha i), fun i => key x1 i (Host.reduce_andi_all _ _ _ _ _ hb i)⟩

end Cert.Chamfer

end
-- ==== Proof.lean ====
/-
  The certificate of the nearest-neighbour distance kernel against its reference.

  Both programs take two sets of 8192 points of 3-space and return the mean over the first set of the squared distance
  to the nearest point of the second, plus the mean over the second set of the squared distance to the nearest point of
  the first. The kernel walks the first set in tiles of 256 points, forms each tile's squared distances to the whole
  second set coordinate by coordinate, writes the row minima out and keeps a running column minimum per half of the
  first set; the reference expands |a − b|² as |a|² + |b|² − 2 a·b, clamps at zero and takes the minima of the whole
  table. Over the extended reals the two agree when the coordinates are real numbers, which the precondition gives:
  the expansion is an identity of real numbers, the squared distance is never negative so the clamp is idle, and a
  minimum does not depend on how its index set is cut into tiles and halves.

  The frames of the two kernel programs are the launch theorem applied to the body's triple at each grid point (the
  same text at the word-level and at the ideal instance); the reference's frame is its run with the result dropped.
  The ideal pass rewrote nothing, so the idealization conjunct is trivial.
-/
import proofs.«155098_j43095701848170_2_alg».proof.Defs
import proofs.«155098_j43095701848170_2_alg».proof.Proof.Gen.Kernel
import proofs.«155098_j43095701848170_2_alg».proof.Proof.Gen.KernelIdeal
import proofs.«155098_j43095701848170_2_alg».proof.Proof.Gen.ReferenceIdeal
import proofs.«155098_j43095701848170_2_alg».proof.Proof.Gen.Pre_finite_inputs
import proofs.«155098_j43095701848170_2_alg».proof.Proof.BitsBody.Body
import proofs.«155098_j43095701848170_2_alg».proof.Proof.KVal
import proofs.«155098_j43095701848170_2_alg».proof.Proof.RefVal
import proofs.«155098_j43095701848170_2_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two point sets, whose coordinates are real numbers by the precondition, the
    idealized kernel's program and the idealized reference end with the same result: the specification's value. -/
theorem algebraic : Cert.algebraic_KernelIdeal_ReferenceIdeal := by
  intro m ρ m' ρ' hpre hagree
  refine ⟨fun c => fun _ => Cert.Chamfer.spec (Cert.KernelIdeal.Val.ptsA m c) (Cert.KernelIdeal.Val.ptsB m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Chamfer.finite_of_pre _ _ (hpre c)
  refine (Cert.ReferenceIdeal.Read.val_main_v22_eq _ _).trans ?_
  rw [(hagree c).1, (hagree c).2]
  exact Cert.ReferenceIdeal.RefVal.result_eq _ _ f0 f1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
